-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S600000 : S_.BroadcastsInDim S600000 (![] : Fin 0 → Fin S600000.rank)
  reducesTo_S600000_S_d0 : S600000.ReducesTo [0] S_

variable [Facts]

def fn_part1 {F : FTy → Type} [FloatOps F] (main_v13 : IVec S_ 1) (main_v16 : IVec S600000 1) : IVec S_ 1 :=
  let main_c_5 : IVec S_ 1 := constantI S_ 1 1#1
  let main_v17 : IVec S_ 1 := (fun x v => Host.reduce IntOp.andi x v reducesTo_S600000_S_d0 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : FVec F S128x128 .f32) (main_arg3 : FVec F S600000 .f32) (main_arg4 : IVec S600000 32) (main_arg5 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S600000 .f32 := Host.absf main_arg3
  let main_cst_4 : FVec F S_ .f32 := constant S_ .f32 0x7F800000#32
  let main_v15 : FVec F S600000 .f32 := broadcastInDim S600000 ![] bcast_S_S600000 main_cst_4
  let main_v16 : IVec S600000 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S600000 : Shape := ⟨1, ![600000]⟩
abbrev S5000x128 : Shape := ⟨2, ![5000, 128]⟩
abbrev S600000x1 : Shape := ⟨2, ![600000, 1]⟩
abbrev S_ : Shape := ⟨0, ![]⟩
abbrev S600000x128 : Shape := ⟨2, ![600000, 128]⟩
abbrev S5000 : Shape := ⟨1, ![5000]⟩
abbrev S5000x1 : Shape := ⟨2, ![5000, 1]⟩

abbrev nBuf : Space → Nat
  | .hbm => 24
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S600000, .f32⟩
  | .hbm, ⟨4, _⟩ => ⟨S600000, .i32⟩
  | .hbm, ⟨5, _⟩ => ⟨S600000, .i32⟩
  | .hbm, ⟨6, _⟩ => ⟨S100000x128, .f32⟩
  | .hbm, ⟨7, _⟩ => ⟨S600000x1, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x128, .f32⟩
  | .hbm, ⟨18, _⟩ => ⟨S600000x128, .f32⟩
  | .hbm, ⟨19, _⟩ => ⟨S_, .f32⟩
  | .hbm, ⟨20, _⟩ => ⟨S100000x128, .f32⟩
  | .hbm, ⟨21, _⟩ => ⟨S600000x1, .i32⟩
  | .hbm, ⟨22, _⟩ => ⟨S100000x128, .f32⟩
  | .hbm, ⟨23, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S600000 : Shape := ⟨1, ![600000]⟩
abbrev S600000x1 : Shape := ⟨2, ![600000, 1]⟩
abbrev S_ : Shape := ⟨0, ![]⟩
abbrev S600000x128 : Shape := ⟨2, ![600000, 128]⟩
abbrev S100000 : Shape := ⟨1, ![100000]⟩
abbrev S100000x1 : Shape := ⟨2, ![100000, 1]⟩

abbrev nBuf : Space → Nat
  | .hbm => 33
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S600000, .f32⟩
  | .hbm, ⟨4, _⟩ => ⟨S600000, .i32⟩
  | .hbm, ⟨5, _⟩ => ⟨S600000, .i32⟩
  | .hbm, ⟨6, _⟩ => ⟨S100000x128, .f32⟩
  | .hbm, ⟨7, _⟩ => ⟨S600000x1, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x128, .f32⟩
  | .hbm, ⟨18, _⟩ => ⟨S600000x128, .f32⟩
  | .hbm, ⟨19, _⟩ => ⟨S_, .f32⟩
  | .hbm, ⟨20, _⟩ => ⟨S100000x128, .f32⟩
  | .hbm, ⟨21, _⟩ => ⟨S600000x1, .i32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000, .f32⟩
  | .hbm, ⟨26, _⟩ => ⟨S100000x1, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x128, .f32⟩
  | .hbm, ⟨32, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.ResultRun.lean ====
/-
  The idealized kernel's run with its result array named.

  The program is two pipelined regions with a stretch of host operations between them. A core's buffers at each
  boundary are a fold from the launch memory: region 0 overwrites its output array through its write-backs, the host
  stretch applies its operations, region 1 overwrites its own output array. Every weakly fair execution terminates
  with every unscoped buffer of every core at the last boundary's contents; read at the result array, that is what
  region 1's write-backs leave of its output window, the region entered from the contents after the host stretch.
  The six argument arrays are written by nothing, so they read back as launched.
-/
import proofs.«173678_j59399397704084_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core holding the
    contents of the last boundary: the launch memory folded through region 0, the host stretch and region 1. -/
theorem ends_at_last_boundary : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The same run read at the result and at the arguments: the result array ends at what region 1's write-backs leave
    of its output window (window 1), the region entered from the contents after the host stretch; each argument array
    ends as launched. -/
theorem run : θ_run defs (onTc (τ := τ) (main (F := F))) ⟨m, fun _ => 0, ρ⟩ (fun r => ∀ c : Dev nD,
      r.2.mem ((c.tc : Thread nD τ).loc main_v14) = (dat1 (V2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v14 (by decide))).trans (W3_arr m ρ c 1),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)
    (ends_at_last_boundary m ρ)

end Cert.KernelIdeal.Result

end
-- ==== Proof.Spec.lean ====
/-
  The two dense stages of the graph convolution as whole-array functions on the extended reals, index by index.

  `linear x w` is the matrix product of the 100000 × 128 features with the 128 × 128 weights: entry (r, c) is the sum
  over k of x(r, k) · w(k, c). `rowNormalize M` divides every entry of M by its row's Euclidean norm, the norm
  clamped from below by the float 9.99999996e-13 (the word 0x2B8CBCCC, read as its exact binary value): entry (r, c)
  is M(r, c) / max(sqrt(Σ_k M(r, k)²), ε). Both programs compute rowNormalize of the same sparse aggregation of
  `linear src W`; the aggregation itself is never opened.
-/
import Idealize.ShloMosaic.PureOps.Ideal
import Idealize.ShloMosaic.Lib.ValueIdx

noncomputable section

namespace Cert.GraphConv

open Idealize.ShloMosaic Idealize.ShloMosaic.ValueIdx

/-- The arrays of node features and messages: 100000 rows of 128 extended reals. -/
abbrev Rows : Type := (⟨2, ![100000, 128]⟩ : Shape).Idx → EReal
/-- The weights: 128 × 128. -/
abbrev Weights : Type := (⟨2, ![128, 128]⟩ : Shape).Idx → EReal

/-- The row of an index, as a number below the row count. -/
abbrev rowOf (i : (⟨2, ![100000, 128]⟩ : Shape).Idx) : Fin 100000 := ⟨(i 0).val, (i 0).isLt⟩
/-- The column of an index, as a number below 128. -/
abbrev colOf (i : (⟨2, ![100000, 128]⟩ : Shape).Idx) : Fin 128 := ⟨(i 1).val, (i 1).isLt⟩

/-- The matrix product x · w: entry (r, c) is Σ_k x(r, k) · w(k, c). -/
def linear (x : Rows) (w : Weights) : Rows :=
  fun i => ∑ k : Fin 128, x (ix2 (rowOf i) k) * w (ix2 k (colOf i))

/-- The lower clamp of a row's norm: the float 9.99999996e-13 as its exact binary value. -/
abbrev normFloor : EReal := Ideal.ofBits .f32 0x2B8CBCCC#32

/-- A row's sum of squares. -/
def rowSumSq (M : Rows) (r : Fin 100000) : EReal := ∑ k : Fin 128, M (ix2 r k) * M (ix2 r k)

/-- Every entry divided by its row's clamped Euclidean norm: M(r, c) / max(sqrt(Σ_k M(r, k)²), ε). -/
def rowNormalize (M : Rows) : Rows :=
  fun i => Ideal.div (M i) (max (Ideal.sqrt (rowSumSq M (rowOf i))) normFloor)

end Cert.GraphConv

end
-- ==== Proof.LinearPayload.lean ====
/-
  The matmul body at an index. The body of the first region loads a 5000 × 128 block of features and the whole
  128 × 128 weights, narrows both to bf16 (the identity on extended reals) and multiplies them on the matrix unit into
  a zero accumulator: entry (p, q) of what it stores is Σ_k a(p, k) · w(k, q), the contraction's one axis re-indexed by
  the numbers below 128.
-/
import proofs.«173678_j59399397704084_1_alg».proof.Proof.Gen.KernelIdeal.Skeleton
import Idealize.ShloMosaic.Lib.ValueIdx
import Idealize.ShloMosaic.PureOps.Ideal.Laws

noncomputable section

namespace Cert.KernelIdeal.Linear

open Cert.KernelIdeal Cert.KernelIdeal.Gen Idealize.ShloMosaic Idealize.ShloMosaic.ValueIdx

/-- The body's dimension numbers: rows × contraction times contraction × columns. -/
abbrev dims := dot_S5000x128_S128x128_S5000x128_1_0_0_1_n_n

theorem lhs_row (j : S5000x128.Idx) (q : dims.contr.Idx) : (dims.lhsIdx j q 0).val = (j 0).val := by
  unfold DotDims.lhsIdx
  rw [dif_neg (show ¬(0 : Fin S5000x128.rank) ∈ dims.lhsBatch by decide), dif_pos (show (0 : Fin S5000x128.rank) ∈ dims.lhsNonContracting by decide)]
  rfl
theorem lhs_col (j : S5000x128.Idx) (q : dims.contr.Idx) : (dims.lhsIdx j q 1).val = (q ⟨0, by decide⟩).val :=
  dims.lhsIdx_val_of_single rfl j q
theorem rhs_row (j : S5000x128.Idx) (q : dims.contr.Idx) : (dims.rhsIdx j q 0).val = (q ⟨0, by decide⟩).val :=
  dims.rhsIdx_val_of_single rfl j q
theorem rhs_col (j : S5000x128.Idx) (q : dims.contr.Idx) : (dims.rhsIdx j q 1).val = (j 1).val := by
  unfold DotDims.rhsIdx
  rw [dif_neg (show ¬(1 : Fin S128x128.rank) ∈ dims.rhsBatch by decide), dif_pos (show (1 : Fin S128x128.rank) ∈ dims.rhsNonContracting by decide)]
  rfl

/-- Entry (p, q) of the stored block is the sum over k of the feature block at (p, k) times the weights at (k, q). -/
theorem payload_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 dims 128 rfl rfl).symm]
  refine Finset.sum_congr rfl fun k _ => ?_
  have hk := contrEquiv1_symm_val dims 128 rfl rfl k
  have el : dims.lhsIdx (ix2 p q) ((contrEquiv1 dims 128 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 128 rfl rfl).symm k) = ix2 k q := funext fun a => Fin.ext (by
    match a with
    | ⟨0, _⟩ => exact (rhs_row _ _).trans hk
    | ⟨1, _⟩ => exact rhs_col _ _)
  rw [el, er]
  rfl

end Cert.KernelIdeal.Linear

end
-- ==== Proof.LinearArray.lean ====
/-
  From blocks to the array, first region. The grid has 20 points; point t loads rows 5000·t … 5000·t + 4999 of the
  features (all 128 columns) and the whole weights, and writes back rows 5000·t … 5000·t + 4999 of the output. Entry
  (p, q) of what point t writes is Σ_k a(5000·t + p, k) · w(k, q), which is entry (5000·t + p, q) of the matrix product
  of the whole arrays: each written block is a block of ONE whole-array function. The 20 blocks tile the 100000 rows
  (row r lies in the block of point r / 5000), so after the region the output array holds the whole product, whatever
  the region found in it.
-/
import proofs.«173678_j59399397704084_1_alg».proof.Proof.Gen.KernelIdeal.Frame
import proofs.«173678_j59399397704084_1_alg».proof.Proof.Spec
import proofs.«173678_j59399397704084_1_alg».proof.Proof.LinearPayload
import Idealize.ShloMosaic.Lib.Pipeline.Value

set_option maxRecDepth 16384

noncomputable section

namespace Cert.KernelIdeal.Linear

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the features' and the output's block is (t, 0), the weights' is (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry y of the features' block at point t is the features' array at row 5000·t + (row of y), same column. -/
theorem features_block_apply (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → Elt Ideal .f32) i := by
  obtain ⟨e0, e1, -⟩ := index_facts t
  unfold iblk0
  rw [View.read_apply]
  show (V c main_arg0 : S100000x128.Idx → Elt Ideal .f32) _ = (V c main_arg0 : S100000x128.Idx → Elt Ideal .f32) i
  refine congrArg (V c main_arg0 : S100000x128.Idx → Elt Ideal .f32) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weights' block at every point is the whole weights array. -/
theorem weights_block_apply (c : Dev nD) (t : Fin cfg0.N) (y : S128x128.Idx) :
    (iblk0 V c 1 t : Vec Ideal S128x128 .f32) y = (V c main_arg2 : S128x128.Idx → Elt Ideal .f32) y := by
  obtain ⟨-, -, e0, e1, -⟩ := index_facts t
  unfold iblk0
  rw [View.read_apply]
  show (V c main_arg2 : S128x128.Idx → Elt Ideal .f32) _ = (V c main_arg2 : S128x128.Idx → Elt Ideal .f32) y
  refine congrArg (V c main_arg2 : S128x128.Idx → Elt Ideal .f32) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- What point t writes back is block t of the whole product of the arrays the region finds. -/
theorem flushed_eq (c : Dev nD) (t : Fin cfg0.N) :
    (dat0 V c).flushed 2 t = ((cfg0.win 2).blk t).view.read (Elt Ideal) (linear (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e0, e1⟩ := index_facts t
  funext j
  have hj0 : (j 0).val < 5000 := (j 0).isLt
  have hj1 : (j 1).val < 128 := (j 1).isLt
  have ht : t.val < 20 := lt_of_lt_of_eq t.isLt N_0
  show k0_pay1 (F := Ideal) (iblk0 V c 0 t) (iblk0 V c 1 t) j = linear (V c main_arg0) (V c main_arg2) (((cfg0.win 2).blk t).view.emb j)
  have hj : j = ix2 (⟨(j 0).val, hj0⟩ : Fin 5000) (⟨(j 1).val, hj1⟩ : Fin 128) :=
    funext fun a => by match a with | ⟨0, _⟩ => rfl | ⟨1, _⟩ => rfl
  have hemb0 : ((((cfg0.win 2).blk t).view.emb j) 0).val = 5000 * t.val + (j 0).val := by
    show win0_2.index t (0 : Fin 2) * 5000 + 1 * (j 0).val = _; rw [e0]; omega
  have hemb1 : ((((cfg0.win 2).blk t).view.emb j) 1).val = (j 1).val := by
    show win0_2.index t (1 : Fin 2) * 128 + 1 * (j 1).val = _; rw [e1]; omega
  refine (congrArg (k0_pay1 (F := Ideal) (iblk0 V c 0 t) (iblk0 V c 1 t)) hj).trans ?_
  refine (payload_apply (iblk0 V c 0 t) (iblk0 V c 1 t) ⟨(j 0).val, hj0⟩ ⟨(j 1).val, hj1⟩).trans ?_
  unfold linear
  refine Finset.sum_congr rfl fun k _ => ?_
  have hcol : (ix2 k (⟨(j 1).val, hj1⟩ : Fin 128) : S128x128.Idx) = ix2 k (colOf (((cfg0.win 2).blk t).view.emb j)) :=
    funext fun a => Fin.ext (by
      match a with
      | ⟨0, _⟩ => rfl
      | ⟨1, _⟩ => exact hemb1.symm)
  rw [features_block_apply V c t (ix2 ⟨(j 0).val, hj0⟩ k) (ix2 (rowOf (((cfg0.win 2).blk t).view.emb j)) k) hemb0 rfl,
    weights_block_apply V c t (ix2 k ⟨(j 1).val, hj1⟩), hcol]

/-- An index of the output array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The 20 blocks tile the array: row r lies in the block of point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, e0, e1⟩ := index_facts t
  have e0' : win0_2.index t (0 : Fin 2) = (i 0).val / 5000 := e0
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first region its output array holds the product of the features and the weights it was entered with. -/
theorem array_eq (c : Dev nD) : (dat0 V c).arrAt 2 cfg0.N = linear (V c main_arg0) (V c main_arg2) :=
  (dat0 V c).arrAt_eq_of_cover 2 (linear (V c main_arg0) (V c main_arg2)) (fun t _ => flushed_eq V c t) cover

end Cert.KernelIdeal.Linear

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.NormalizePayload.lean ====
/-
  The normalize body at an index. The body of the second region loads a 5000 × 128 block m of messages, squares it,
  sums each row's 128 squares on the lanes, keeps the sums as a column, takes the square root, clamps it from below by
  the float 9.99999996e-13, spreads the column back along the rows and divides: entry (p, q) of what it stores is
  m(p, q) / max(sqrt(Σ_k m(p, k)²), ε). Only row p of the block enters entry (p, q).
-/
import proofs.«173678_j59399397704084_1_alg».proof.Proof.Gen.KernelIdeal.Skeleton
import proofs.«173678_j59399397704084_1_alg».proof.Proof.LibColumnLayout
import Idealize.ShloMosaic.Lib.ValueIdx
import Idealize.ShloMosaic.Lib.Pipeline.Value
import Idealize.ShloMosaic.PureOps.Ideal.Laws

noncomputable section

namespace Cert.KernelIdeal.Normalize

open Cert.KernelIdeal Cert.KernelIdeal.Gen Idealize.ShloMosaic Idealize.ShloMosaic.ValueIdx

/-- The lane reduction read at row p: the sum over the row's 128 entries. -/
theorem row_sum_apply (v : FVec Ideal S5000x128 .f32) (p : Fin 5000) :
    multiReduction .add [1] S5000 v 0x00000000#32 reduces_S5000x128_S5000 (.inl rfl) rfl (ix1 p) = ∑ k : Fin 128, v (ix2 p k) :=
  (Ideal.multiReduction_add_single v 0x00000000#32 reduces_S5000x128_S5000 (.inl rfl) rfl (ix1 p)).trans
    (Finset.sum_congr rfl fun k _ => congrArg v (funext fun a => Fin.ext (by
      match a with
      | ⟨0, _⟩ => rfl
      | ⟨1, _⟩ => rfl)))

/-- Entry (p, q) of the stored block: the loaded entry over its row's clamped Euclidean norm. -/
theorem payload_apply (x : Vec Ideal S5000x128 .f32) (p : Fin 5000) (q : Fin 128) :
    k1_pay1 (F := Ideal) x (ix2 p q)
      = Ideal.div (x (ix2 p q)) (max (Ideal.sqrt (∑ k : Fin 128, x (ix2 p k) * x (ix2 p k))) (Ideal.ofBits .f32 0x2B8CBCCC#32)) := by
  unfold k1_pay1
  dsimp only
  rw [shapeCast_self]
  show Ideal.div (x (ix2 p q)) (broadcastTo S5000x128 _ broadcasts_S5000x1_S5000x128 (ix2 p q)) = _
  rw [Cert.ColumnLayout.broadcastTo_a1_ab_apply]
  show Ideal.div (x (ix2 p q)) (max (Ideal.sqrt (shapeCast S5000x1 _ shapeCasts_S5000_S5000x1 (ix2 p (0 : Fin 1)))) (Ideal.ofBits .f32 0x2B8CBCCC#32)) = _
  rw [Cert.ColumnLayout.shapeCast_a_a1_apply, row_sum_apply]
  rfl

end Cert.KernelIdeal.Normalize

end
-- ==== Proof.NormalizeArray.lean ====
/-
  From blocks to the array, second region. The grid has 20 points; point t loads rows 5000·t … 5000·t + 4999 of the
  messages and writes back the same rows of the result. Entry (p, q) of what point t writes depends only on row p of the
  loaded block, which is row 5000·t + p of the messages array: it is entry (5000·t + p, q) of the row-normalized whole
  array. A row never straddles two blocks, so each written block is a block of ONE whole-array function, and the 20
  blocks tile the 100000 rows: after the region the result array is the row-normalized messages array.
-/
import proofs.«173678_j59399397704084_1_alg».proof.Proof.Gen.KernelIdeal.Frame
import proofs.«173678_j59399397704084_1_alg».proof.Proof.Spec
import proofs.«173678_j59399397704084_1_alg».proof.Proof.NormalizePayload
import Idealize.ShloMosaic.Lib.Pipeline.Value

set_option maxRecDepth 16384

noncomputable section

namespace Cert.KernelIdeal.Normalize

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: both windows' block at point t is (t, 0). -/
theorem index_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Entry y of the messages' block at point t is the messages array at row 5000·t + (row of y), same column. -/
theorem messages_block_apply (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v13 : S100000x128.Idx → Elt Ideal .f32) i := by
  obtain ⟨e0, e1, -⟩ := index_facts t
  unfold iblk1
  rw [View.read_apply]
  show (V c main_v13 : S100000x128.Idx → Elt Ideal .f32) _ = (V c main_v13 : S100000x128.Idx → Elt Ideal .f32) i
  refine congrArg (V c main_v13 : S100000x128.Idx → Elt Ideal .f32) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- What point t writes back is block t of the row-normalized messages array the region finds. -/
theorem flushed_eq (c : Dev nD) (t : Fin cfg1.N) :
    (dat1 V c).flushed 1 t = ((cfg1.win 1).blk t).view.read (Elt Ideal) (rowNormalize (V c main_v13)) := by
  show (cfg1.win 1).cut (grid1.coords t) ((dat1 V c).after 1 t) = _
  rw [after1_1]
  unfold out1_1
  rw [View.canon_unit_zero zero_offsets]
  simp only [View.ld_unit_zero (S := S5000x128) zero_offsets]
  obtain ⟨-, -, e0, e1⟩ := index_facts t
  funext j
  have hj0 : (j 0).val < 5000 := (j 0).isLt
  have hj1 : (j 1).val < 128 := (j 1).isLt
  have ht : t.val < 20 := lt_of_lt_of_eq t.isLt N_1
  show k1_pay1 (F := Ideal) (iblk1 V c 0 t) j = rowNormalize (V c main_v13) (((cfg1.win 1).blk t).view.emb j)
  have hj : j = ix2 (⟨(j 0).val, hj0⟩ : Fin 5000) (⟨(j 1).val, hj1⟩ : Fin 128) :=
    funext fun a => by match a with | ⟨0, _⟩ => rfl | ⟨1, _⟩ => rfl
  have hemb0 : ((((cfg1.win 1).blk t).view.emb j) 0).val = 5000 * t.val + (j 0).val := by
    show win1_1.index t (0 : Fin 2) * 5000 + 1 * (j 0).val = _; rw [e0]; omega
  have hemb1 : ((((cfg1.win 1).blk t).view.emb j) 1).val = (j 1).val := by
    show win1_1.index t (1 : Fin 2) * 128 + 1 * (j 1).val = _; rw [e1]; omega
  refine (congrArg (k1_pay1 (F := Ideal) (iblk1 V c 0 t)) hj).trans ?_
  refine (payload_apply (iblk1 V c 0 t) ⟨(j 0).val, hj0⟩ ⟨(j 1).val, hj1⟩).trans ?_
  unfold rowNormalize rowSumSq
  rw [messages_block_apply V c t (ix2 ⟨(j 0).val, hj0⟩ ⟨(j 1).val, hj1⟩) (((cfg1.win 1).blk t).view.emb j) hemb0 hemb1]
  refine congrArg (fun s => Ideal.div _ (max (Ideal.sqrt s) _)) (Finset.sum_congr rfl fun k _ => ?_)
  rw [messages_block_apply V c t (ix2 ⟨(j 0).val, hj0⟩ k) (ix2 (rowOf (((cfg1.win 1).blk t).view.emb j)) k) hemb0 rfl]

/-- An index of the result array is in point t's block iff each coordinate is in the block's range on its axis. -/
theorem mem_block (t : Fin cfg1.N) (i : S100000x128.Idx) :
    i ∈ ((cfg1.win 1).blk t).view.set ↔ ∀ a : Fin 2, win1_1.index t a * S5000x128.size a ≤ (i a).val ∧ (i a).val < win1_1.index t a * S5000x128.size a + S5000x128.size a := by
  show i ∈ ((View.whole main_v14).slice (win1_1.rect t)).set ↔ _
  rw [View.set_slice_whole, Rect.mem_set_unit]
  exact Iff.rfl

/-- The 20 blocks tile the array: row r lies in the block of point r / 5000. -/
theorem cover (i : S100000x128.Idx) : ∃ t : Fin cfg1.N, (cfg1.win 1).flush t = true ∧ i ∈ ((cfg1.win 1).blk t).view.set := by
  have hi0 : (i 0).val < 100000 := (i 0).isLt
  have hi1 : (i 1).val < 128 := (i 1).isLt
  let t : Fin cfg1.N := ⟨(i 0).val / 5000, lt_of_lt_of_eq (by omega : (i 0).val / 5000 < 20) N_1.symm⟩
  obtain ⟨-, -, e0, e1⟩ := index_facts t
  have e0' : win1_1.index t (0 : Fin 2) = (i 0).val / 5000 := e0
  refine ⟨t, flush1_1 t, ?_⟩
  rw [mem_block]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 128 ≤ (i 1).val ∧ (i 1).val < win1_1.index t (1 : Fin 2) * 128 + 128; omega

/-- After the second region its result array is the row-normalized messages array it was entered with. -/
theorem array_eq (c : Dev nD) : (dat1 V c).arrAt 1 cfg1.N = rowNormalize (V c main_v13) :=
  (dat1 V c).arrAt_eq_of_cover 1 (rowNormalize (V c main_v13)) (fun t _ => flushed_eq V c t) cover

end Cert.KernelIdeal.Normalize

end
-- ==== Proof.Aggregation.lean ====
/-
  The host stretch between the two regions, as one function. Between the regions the program gathers rows of the
  first region's output by the edges' source indices (a negative index wrapped by the row count), scales each gathered
  row by its edge's weight, and adds the scaled rows into a zero array at the edges' destination indices. That sparse
  aggregation is named here as ONE function of the dense array and the three edge arrays, and is never opened: the
  reference applies the same operations, so only the dense array going in has to be shown equal.
  The contents the second region is entered with, at the messages array, are that function of what the first region
  left in its output array and of the edge arrays as launched (nothing before the stretch writes them).
-/
import proofs.«173678_j59399397704084_1_alg».proof.Proof.Gen.KernelIdeal.Frame
import Idealize.ShloMosaic.Lib.StableHlo.Run

set_option maxRecDepth 16384

noncomputable section

namespace Cert.KernelIdeal.Aggregation

open Cert.KernelIdeal Cert.KernelIdeal.Gen
open Idealize.ShloMosaic Idealize.ShloMosaic.TcCoe Idealize.SL.Sem Idealize.ShloMosaic.StableHlo

variable {F : FTy → Type} [FloatOps F]

/-- The sparse aggregation: gather rows of `y` by source index (negative indices wrapped by 100000), scale by the edge
    weights, scatter-add by destination index into zeros. -/
def aggregate (y : (⟨S100000x128, .f32⟩ : BufTy).Contents (Elt F)) (weight : (⟨S600000, .f32⟩ : BufTy).Contents (Elt F))
    (source dest : (⟨S600000, .i32⟩ : BufTy).Contents (Elt F)) : (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dest)
    (mulf (broadcastInDim S600000x128 ![0, 1] bcast_S600000x1_S600000x128_0_1 (broadcastInDim S600000x1 ![0] bcast_S600000_S600000x1_0 weight))
      (Host.gather gather_S100000x128_S600000x1_S600000x128_1_0_n_n_0_1_1128 y
        (broadcastInDim S600000x1 ![0] bcast_S600000_S600000x1_0
          (select (cmpi .slt source (broadcastInDim S600000 ![] bcast_S_S600000 (constantI S_ 32 0#32)))
            (addi source (broadcastInDim S600000 ![] bcast_S_S600000 (constantI S_ 32 100000#32))) source))))

variable (m : (ℓ : Loc nD τ sig) → Buf (Elt F) ℓ) (ρ : Dev nD → PrngReg)

/-- The messages array as the second region finds it: the aggregation of the contents after the first region. -/
theorem messages_eq (c : Dev nD) :
    V2 m ρ c main_v13 = aggregate (V1 m ρ c main_v0) (V1 m ρ c main_arg3) (V1 m ρ c main_arg4) (V1 m ρ c main_arg5) := by
  show StableHlo.after hostOps1 (W1 m ρ c) (Proc.devRef .tc main_v13) = _
  unfold aggregate
  after_results

/-- After the first region its output array holds what its write-backs leave. -/
theorem dense_eq (c : Dev nD) : V1 m ρ c main_v0 = (dat0 (V0 m ρ) c).arrAt 2 cfg0.N := W1_arr m ρ c 2

/-- The first region writes none of the edge arrays: they are as launched. -/
theorem weight_eq (c : Dev nD) : V1 m ρ c main_arg3 = m ((c : Thread nD τ).loc main_arg3) := W1_of_ne m ρ c main_arg3 (by decide)
theorem source_eq (c : Dev nD) : V1 m ρ c main_arg4 = m ((c : Thread nD τ).loc main_arg4) := W1_of_ne m ρ c main_arg4 (by decide)
theorem dest_eq (c : Dev nD) : V1 m ρ c main_arg5 = m ((c : Thread nD τ).loc main_arg5) := W1_of_ne m ρ c main_arg5 (by decide)

end Cert.KernelIdeal.Aggregation

end
-- ==== Proof.KernelValue.lean ====
/-
  The idealized kernel's result as one function of its arguments. Chaining the three pieces: the second region leaves
  the row-normalized array it was entered with; that array is the sparse aggregation of what the first region left and
  of the edge arrays as launched; the first region left the matrix product of the features and the weights as
  launched. So the result array ends at
      rowNormalize (aggregate (linear src W) edge_weight edge_src edge_dst),
  and every weakly fair execution ends there with the arguments unchanged.
-/
import proofs.«173678_j59399397704084_1_alg».proof.Proof.ResultRun
import proofs.«173678_j59399397704084_1_alg».proof.Proof.LinearArray
import proofs.«173678_j59399397704084_1_alg».proof.Proof.NormalizeArray
import proofs.«173678_j59399397704084_1_alg».proof.Proof.Aggregation

set_option maxRecDepth 16384

noncomputable section

namespace Cert.KernelIdeal.Result

open Cert.KernelIdeal Cert.KernelIdeal.Gen Cert.GraphConv Cert.KernelIdeal.Aggregation
open Idealize.ShloMosaic Idealize.ShloMosaic.TcCoe Idealize.SL.Sem

variable (m : (ℓ : Loc nD τ sig) → Buf (Elt Ideal) ℓ) (ρ : Dev nD → PrngReg)

/-- The result on core c as a function of the launch contents of the arguments. -/
def value (c : Dev nD) : Buf (Elt Ideal) ((c.tc : Thread nD τ).loc main_v14) :=
  rowNormalize (aggregate (F := Ideal) (linear (m ((c.tc : Thread nD τ).loc main_arg0)) (m ((c.tc : Thread nD τ).loc main_arg2)))
    (m ((c.tc : Thread nD τ).loc main_arg3)) (m ((c.tc : Thread nD τ).loc main_arg4)) (m ((c.tc : Thread nD τ).loc main_arg5)))

/-- What the second region's write-backs leave of its output window is that function. -/
theorem final_eq (c : Dev nD) : (dat1 (V2 m ρ) c).arrAt 1 cfg1.N = value m c := by
  rw [Normalize.array_eq (V2 m ρ) c, messages_eq m ρ c, dense_eq m ρ c, weight_eq m ρ c, source_eq m ρ c, dest_eq m ρ c,
    Linear.array_eq (V0 m ρ) c]
  rfl

/-- Every weakly fair execution of the idealized kernel terminates with the result at `value` and the arguments unchanged. -/
theorem value_run : θ_run defs (onTc (τ := τ) (main (F := Ideal))) ⟨m, fun _ => 0, ρ⟩ (fun r => ∀ c : Dev nD,
      r.2.mem ((c.tc : Thread nD τ).loc main_v14) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final_eq m ρ c), (h c).2⟩) (run m ρ)

end Cert.KernelIdeal.Result

end
-- ==== Proof.ReferenceStages.lean ====
/-
  The reference's dense stages are the specification's. Its `dot_general` of the features and the weights, read at an
  index, is the sum over the contracted axis: the matrix product `linear`. Its tail — the square of the messages, the
  host's sum over each row from the initial value 0, the sum kept as a column, the square root, the maximum with the
  float 9.99999996e-13, the column spread along the rows, the quotient — read at an index (r, c), is the messages'
  entry over its row's clamped Euclidean norm: `rowNormalize` of the messages stage. The initial value 0 added to a
  sum changes nothing; no other law of the extended reals is used.
-/
import proofs.«173678_j59399397704084_1_alg».proof.Proof.Gen.ReferenceIdeal.Read
import proofs.«173678_j59399397704084_1_alg».proof.Proof.Spec

noncomputable section

namespace Cert.ReferenceIdeal.Stages

open Cert.ReferenceIdeal Cert.ReferenceIdeal.Read Cert.GraphConv
open Idealize.ShloMosaic Idealize.ShloMosaic.ValueIdx

/-- The reference's `dot_general` is the matrix product. -/
theorem dense_eq (x0 : (⟨S100000x128, .f32⟩ : BufTy).Contents (Elt Ideal)) (x2 : (⟨S128x128, .f32⟩ : BufTy).Contents (Elt Ideal)) :
    val_main_v0 (F := Ideal) x0 x2 = linear x0 x2 := by
  funext i
  rw [val_main_v0_apply]
  unfold linear
  refine Finset.sum_congr rfl fun k _ => ?_
  have el : lidx_main_v0 i k = ix2 (rowOf i) k := funext fun a => Fin.ext (by
    match a with
    | ⟨0, _⟩ => rfl
    | ⟨1, _⟩ => rfl)
  have er : ridx_main_v0 i k = ix2 k (colOf i) := funext fun a => Fin.ext (by
    match a with
    | ⟨0, _⟩ => rfl
    | ⟨1, _⟩ => rfl)
  rw [el, er]

/-- The reference's result is the row-normalized messages stage. -/
theorem result_eq (x0 : (⟨S100000x128, .f32⟩ : BufTy).Contents (Elt Ideal)) (x2 : (⟨S128x128, .f32⟩ : BufTy).Contents (Elt Ideal))
    (x3 : (⟨S600000, .f32⟩ : BufTy).Contents (Elt Ideal)) (x4 x5 : (⟨S600000, .i32⟩ : BufTy).Contents (Elt Ideal)) :
    val_main_v18 (F := Ideal) x0 x2 x3 x4 x5 = rowNormalize (val_main_v13 (F := Ideal) x0 x2 x3 x4 x5) := by
  funext i
  have erow : ∀ k : Fin 128, idx_main_call0_v1 (idx_main_call0_v2 (idx_main_v17 i)) k = ix2 (rowOf i) k := fun k =>
    funext fun a => Fin.ext (by
      match a with
      | ⟨0, _⟩ => rfl
      | ⟨1, _⟩ => rfl)
  rw [val_main_v18_apply, val_main_v17_apply, val_main_v16_apply, val_main_v14_apply, val_main_v15_apply, val_main_cst_1_apply,
    val_main_call0_v2_apply, val_main_call0_v1_apply, val_main_call0_cst_apply]
  unfold rowNormalize rowSumSq
  simp only [val_main_call0_v0_apply, erow, Ideal.hostDivf_def, Ideal.maximumf_def, Ideal.hostUnary_sqrt_def, Ideal.ofBits_def,
    Ideal.mulf_def, Ideal.ofBits_zero_f32, zero_add]

end Cert.ReferenceIdeal.Stages

end
-- ==== Proof.ReferenceValue.lean ====
/-
  The reference's result as the same function. Its last stage is the row-normalized messages stage, and its messages
  stage applies to its `dot_general` — the matrix product — exactly the operations the kernel's program applies between
  its two regions: the same gather, scaling and scatter-add with the same dimension numbers and the same constants. So
  the reference's result is
      rowNormalize (aggregate (linear src W) edge_weight edge_src edge_dst),
  the aggregation taken as one function and not opened.
-/
import proofs.«173678_j59399397704084_1_alg».proof.Proof.ReferenceStages
import proofs.«173678_j59399397704084_1_alg».proof.Proof.Aggregation

noncomputable section

namespace Cert.ReferenceIdeal.Stages

open Cert.ReferenceIdeal Cert.ReferenceIdeal.Read Cert.GraphConv
open Idealize.ShloMosaic

/-- The reference's messages stage is the kernel program's aggregation of the matrix product. -/
theorem messages_eq (x0 : (⟨S100000x128, .f32⟩ : BufTy).Contents (Elt Ideal)) (x2 : (⟨S128x128, .f32⟩ : BufTy).Contents (Elt Ideal))
    (x3 : (⟨S600000, .f32⟩ : BufTy).Contents (Elt Ideal)) (x4 x5 : (⟨S600000, .i32⟩ : BufTy).Contents (Elt Ideal)) :
    val_main_v13 (F := Ideal) x0 x2 x3 x4 x5 = Cert.KernelIdeal.Aggregation.aggregate (F := Ideal) (linear x0 x2) x3 x4 x5 := by
  rw [← dense_eq]
  unfold val_main_v13 val_main_v12 val_main_v11 val_main_cst val_main_v10 val_main_v9 val_main_v1 val_main_v8 val_main_v7
    val_main_v6 val_main_v5 val_main_v4 val_main_c_0 val_main_v3 val_main_v2 val_main_c Cert.KernelIdeal.Aggregation.aggregate
  rfl

/-- The reference's result as the function both programs compute. -/
theorem value_eq (x0 : (⟨S100000x128, .f32⟩ : BufTy).Contents (Elt Ideal)) (x2 : (⟨S128x128, .f32⟩ : BufTy).Contents (Elt Ideal))
    (x3 : (⟨S600000, .f32⟩ : BufTy).Contents (Elt Ideal)) (x4 x5 : (⟨S600000, .i32⟩ : BufTy).Contents (Elt Ideal)) :
    val_main_v18 (F := Ideal) x0 x2 x3 x4 x5
      = rowNormalize (Cert.KernelIdeal.Aggregation.aggregate (F := Ideal) (linear x0 x2) x3 x4 x5) := by
  rw [result_eq, messages_eq]

end Cert.ReferenceIdeal.Stages

end
-- ==== Proof.lean ====
/-
  A sparse graph convolution kernel against its jnp reference, over the extended reals.

  For node features src (100000 × 128), weights W (128 × 128) and 600000 weighted edges both programs compute
      out = rowNormalize (aggregate (src · W) edge_weight edge_src edge_dst):
  the dense product src · W; the sparse aggregation (gather its rows by source index, scale each by its edge's weight,
  add into zeros at the destination index); and each row of the aggregate divided by its Euclidean norm, the norm
  clamped from below by the float 9.99999996e-13.

  The kernel does the product and the normalization in two pipelined regions over blocks of 5000 rows and the
  aggregation on the host between them; the reference does everything on the host. Over the extended reals the two
  differ in nothing but arrangement: narrowing the product's operands to bf16 is the identity; a matrix-unit product into
  a zero accumulator and the host's `dot_general` are the same sum over the contracted axis; a lane reduction and the
  host's reduction from the initial value 0 are the same sum over a row; and a row of the aggregate never straddles two
  blocks, so normalizing block by block is normalizing the whole array. The aggregation is the same operations with the
  same constants on both sides and is carried as one function, never opened. The clamp is the same float word on both
  sides and is never evaluated. No law beyond 0 + s = s is used, so the finiteness of the inputs is not needed.

  The three frames: the kernel's two are generated whole; the reference's is its generated run with the result dropped.
  The idealization rewrote no operation, so there is nothing to preserve.
-/
import proofs.«173678_j59399397704084_1_alg».proof.Defs
import proofs.«173678_j59399397704084_1_alg».proof.Proof.Gen.Kernel
import proofs.«173678_j59399397704084_1_alg».proof.Proof.Gen.Kernel.Skeleton
import proofs.«173678_j59399397704084_1_alg».proof.Proof.Gen.Kernel.Launch
import proofs.«173678_j59399397704084_1_alg».proof.Proof.Gen.Kernel.Points
import proofs.«173678_j59399397704084_1_alg».proof.Proof.Gen.Kernel.Frame
import proofs.«173678_j59399397704084_1_alg».proof.Proof.Gen.KernelIdeal
import proofs.«173678_j59399397704084_1_alg».proof.Proof.Gen.KernelIdeal.Skeleton
import proofs.«173678_j59399397704084_1_alg».proof.Proof.Gen.KernelIdeal.Launch
import proofs.«173678_j59399397704084_1_alg».proof.Proof.Gen.KernelIdeal.Points
import proofs.«173678_j59399397704084_1_alg».proof.Proof.Gen.KernelIdeal.Frame
import proofs.«173678_j59399397704084_1_alg».proof.Proof.Gen.ReferenceIdeal
import proofs.«173678_j59399397704084_1_alg».proof.Proof.Gen.ReferenceIdeal.Run
import proofs.«173678_j59399397704084_1_alg».proof.Proof.Gen.ReferenceIdeal.Read
import proofs.«173678_j59399397704084_1_alg».proof.Proof.Gen.Pre_finite_inputs
import Idealize.ShloMosaic.Adequacy
import Idealize.ShloMosaic.Init
import proofs.«173678_j59399397704084_1_alg».proof.Proof.KernelValue
import proofs.«173678_j59399397704084_1_alg».proof.Proof.ReferenceValue

noncomputable section

namespace Cert.Proof

open Idealize.ShloMosaic Idealize.SL.Sem

/-- The kernel as printed runs, nothing faulting, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at
    rowNormalize (aggregate (src · W) edge_weight edge_src edge_dst) of the kernel's arguments. -/
theorem algebraic : Cert.algebraic_KernelIdeal_ReferenceIdeal := by
  intro m ρ m' ρ' _ hagree
  refine ⟨fun c => Cert.KernelIdeal.Result.value m c, Cert.KernelIdeal.Result.value_run m ρ, ?_⟩
  refine (θ_run Cert.ReferenceIdeal.defs _ _).mono (fun _ h c => ⟨(h c).1.trans ?_, (h c).2⟩)
    (Cert.ReferenceIdeal.Value.run (F := Ideal) m' ρ')
  obtain ⟨e0, -, e2, e3, e4, e5⟩ := hagree c
  rw [Cert.ReferenceIdeal.Read.val_main_v18_eq, Cert.ReferenceIdeal.Stages.value_eq, e0, e2, e3, e4, e5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
